-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x3072 : Shape := ⟨2, ![8192, 3072]⟩
abbrev S256x3072 : Shape := ⟨2, ![256, 3072]⟩
abbrev S_ : Shape := ⟨0, ![]⟩

class Facts : Prop where
  bcast_S_S8192x3072 : S_.BroadcastsInDim S8192x3072 (![] : Fin 0 → Fin S8192x3072.rank)
  reducesTo_S8192x3072_S_d0_1 : S8192x3072.ReducesTo [0, 1] S_
  h_S_ : 0 < S_.numel
  bcast_S_S256x3072 : S_.BroadcastsInDim S256x3072 (![] : Fin 0 → Fin S256x3072.rank)
  reducesTo_S256x3072_S_d0_1 : S256x3072.ReducesTo [0, 1] S_

variable [Facts]

def fn {F : FTy → Type} [FloatOps F] (main_arg0 : FVec F S8192x3072 .f32) (main_arg1 : FVec F S256x3072 .f32) : IVec S_ 1 :=
  let main_v0 : FVec F S8192x3072 .f32 := Host.absf main_arg0
  let main_cst : FVec F S_ .f32 := constant S_ .f32 0x7F800000#32
  let main_v1 : FVec F S8192x3072 .f32 := broadcastInDim S8192x3072 ![] bcast_S_S8192x3072 main_cst
  let main_v2 : IVec S8192x3072 1 := cmpf .olt main_v0 main_v1
  let main_c : IVec S_ 1 := constantI S_ 1 1#1
  let main_v3 : IVec S_ 1 := (fun x v => Host.reduce IntOp.andi x v reducesTo_S8192x3072_S_d0_1 h_S_) main_v2 main_c
  let main_v4 : FVec F S256x3072 .f32 := Host.absf main_arg1
  let main_cst_0 : FVec F S_ .f32 := constant S_ .f32 0x7F800000#32
  let main_v5 : FVec F S256x3072 .f32 := broadcastInDim S256x3072 ![] bcast_S_S256x3072 main_cst_0
  let main_v6 : IVec S256x3072 1 := cmpf .olt main_v4 main_v5
  let main_c_1 : IVec S_ 1 := constantI S_ 1 1#1
  let main_v7 : IVec S_ 1 := (fun x v => Host.reduce IntOp.andi x v reducesTo_S256x3072_S_d0_1 h_S_) main_v6 main_c_1
  let main_v8 : IVec S_ 1 := andi main_v3 main_v7
  main_v8
-- ==== Kernel.lean ====
abbrev S8192x3072 : Shape := ⟨2, ![8192, 3072]⟩
abbrev S256x3072 : Shape := ⟨2, ![256, 3072]⟩
abbrev S_ : Shape := ⟨0, ![]⟩
abbrev S256 : Shape := ⟨1, ![256]⟩
abbrev S256x1 : Shape := ⟨2, ![256, 1]⟩
abbrev S1x256 : Shape := ⟨2, ![1, 256]⟩
abbrev S8192x256 : Shape := ⟨2, ![8192, 256]⟩
abbrev S512x3072 : Shape := ⟨2, ![512, 3072]⟩
abbrev S512x256 : Shape := ⟨2, ![512, 256]⟩
abbrev S512 : Shape := ⟨1, ![512]⟩
abbrev S512x1 : Shape := ⟨2, ![512, 1]⟩

abbrev nBuf : Space → Nat
  | .hbm => 9
  | .vmem => 6
  | .smem => 0
  | _ => 0

abbrev bufTy : (tb : Table) → Fin (tcTables nBuf tb) → BufTy
  | .hbm, ⟨0, _⟩ => ⟨S8192x3072, .f32⟩
  | .hbm, ⟨1, _⟩ => ⟨S256x3072, .f32⟩
  | .hbm, ⟨2, _⟩ => ⟨S256x3072, .bf16⟩
  | .hbm, ⟨3, _⟩ => ⟨S256x3072, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S1x256, .f32⟩
  | .hbm, ⟨8, _⟩ => ⟨S8192x256, .f32⟩
  | .local _ .vmem, ⟨0, _⟩ => ⟨S512x3072, .f32⟩
  | .local _ .vmem, ⟨1, _⟩ => ⟨S512x3072, .f32⟩
  | .local _ .vmem, ⟨2, _⟩ => ⟨S256x3072, .bf16⟩
  | .local _ .vmem, ⟨3, _⟩ => ⟨S1x256, .f32⟩
  | .local _ .vmem, ⟨4, _⟩ => ⟨S512x256, .f32⟩
  | .local _ .vmem, ⟨5, _⟩ => ⟨S512x256, .f32⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bitsLt_bf16_f32 : FTy.bits .bf16 < FTy.bits .f32
  reducesTo_S256x3072_S256_d1 : S256x3072.ReducesTo [1] S256
  h_S_ : 0 < S_.numel
  bcast_S256_S256x1_0 : S256.BroadcastsInDim S256x1 (![0] : Fin 1 → Fin S256x1.rank)
  shapeCasts_S256x1_S1x256 : S256x1.ShapeCasts S1x256
  inb_S512x3072_S512x3072_0_0 : ∀ a, (![0, 0] : Fin 2 → Nat) a + S512x3072.size a ≤ S512x3072.size a
  h_S512x3072 : 0 < S512x3072.numel
  reduces_S512x3072_S512 : S512x3072.Reduces [1] S512
  shapeCasts_S512_S512x1 : S512.ShapeCasts S512x1
  inb_S256x3072_S256x3072_0_0 : ∀ a, (![0, 0] : Fin 2 → Nat) a + S256x3072.size a ≤ S256x3072.size a
  h_S256x3072 : 0 < S256x3072.numel
  shapeCasts_S256x3072_S256x3072 : S256x3072.ShapeCasts S256x3072
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S512x1_S512x256 : S512x1.Broadcasts S512x256
  broadcasts_S1x256_S512x256 : S1x256.Broadcasts S512x256
  inb_S512x256_S512x256_0_0 : ∀ a, (![0, 0] : Fin 2 → Nat) a + S512x256.size a ≤ S512x256.size a
  h_S512x256 : 0 < S512x256.numel
  dot_S512x3072_S256x3072_S512x256_1_1_0_0_n_n_wf : DotDims.WF S512x3072 S256x3072 S512x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x3072.size a ≤ S8192x3072.size a
  hwx0_0 : ∀ i : grid0.Coords, EltTy.bits .f32 = 32 ∨ (Rect.block (s := S8192x3072) S512x3072.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x3072.size a ≤ S256x3072.size a
  hwx0_1 : ∀ i : grid0.Coords, EltTy.bits .bf16 = 32 ∨ (Rect.block (s := S256x3072) S256x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S8192x256.size a
  hwx0_3 : ∀ i : grid0.Coords, EltTy.bits .f32 = 32 ∨ (Rect.block (s := S8192x256) S512x256.size (cc0_transform_3 i) (hinb0_3 i)).WholeWords (EltTy.packing .f32)

variable [Facts₀]

def dot_S512x3072_S256x3072_S512x256_1_1_0_0_n_n : DotDims S512x3072 S256x3072 S512x256 where
  lhsContracting := [1]
  rhsContracting := [1]
  lhsNonContracting := [0]
  rhsNonContracting := [0]
  lhsBatch := []
  rhsBatch := []
  wf := dot_S512x3072_S256x3072_S512x256_1_1_0_0_n_n_wf

abbrev win0_0 : Pipeline.Window sig grid0 :=
  Pipeline.Window.ofSpec (Memref.whole main_arg0) S512x3072.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S512x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x3072 : Shape := ⟨2, ![8192, 3072]⟩
abbrev S256x3072 : Shape := ⟨2, ![256, 3072]⟩
abbrev S_ : Shape := ⟨0, ![]⟩
abbrev S8192 : Shape := ⟨1, ![8192]⟩
abbrev S8192x1 : Shape := ⟨2, ![8192, 1]⟩
abbrev S256 : Shape := ⟨1, ![256]⟩
abbrev S8192x256 : Shape := ⟨2, ![8192, 256]⟩
abbrev S1x256 : Shape := ⟨2, ![1, 256]⟩

abbrev nBuf : Space → Nat
  | .hbm => 22
  | .vmem => 0
  | .smem => 0
  | _ => 0

abbrev bufTy : (tb : Table) → Fin (tcTables nBuf tb) → BufTy
  | .hbm, ⟨0, _⟩ => ⟨S8192x3072, .f32⟩
  | .hbm, ⟨1, _⟩ => ⟨S256x3072, .f32⟩
  | .hbm, ⟨2, _⟩ => ⟨S8192x3072, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S256x3072, .f32⟩
  | .hbm, ⟨7, _⟩ => ⟨S_, .f32⟩
  | .hbm, ⟨8, _⟩ => ⟨S256, .f32⟩
  | .hbm, ⟨9, _⟩ => ⟨S8192x256, .f32⟩
  | .hbm, ⟨10, _⟩ => ⟨S1x256, .f32⟩
  | .hbm, ⟨11, _⟩ => ⟨S8192x256, .f32⟩
  | .hbm, ⟨12, _⟩ => ⟨S8192x256, .f32⟩
  | .hbm, ⟨13, _⟩ => ⟨S8192x256, .f32⟩
  | .hbm, ⟨14, _⟩ => ⟨S_, .f32⟩
  | .hbm, ⟨15, _⟩ => ⟨S8192x256, .f32⟩
  | .hbm, ⟨16, _⟩ => ⟨S8192x256, .f32⟩
  | .hbm, ⟨17, _⟩ => ⟨S8192x256, .f32⟩
  | .hbm, ⟨18, _⟩ => ⟨S_, .f32⟩
  | .hbm, ⟨19, _⟩ => ⟨S8192x256, .f32⟩
  | .hbm, ⟨20, _⟩ => ⟨S8192x256, .f32⟩
  | .hbm, ⟨21, _⟩ => ⟨S8192x256, .f32⟩
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  reducesTo_S8192x3072_S8192_d1 : S8192x3072.ReducesTo [1] S8192
  h_S_ : 0 < S_.numel
  bcast_S8192_S8192x1_0 : S8192.BroadcastsInDim S8192x1 (![0] : Fin 1 → Fin S8192x1.rank)
  reducesTo_S256x3072_S256_d1 : S256x3072.ReducesTo [1] S256
  bcast_S256_S1x256_1 : S256.BroadcastsInDim S1x256 (![1] : Fin 1 → Fin S1x256.rank)
  bcast_S8192x1_S8192x256_0_1 : S8192x1.BroadcastsInDim S8192x256 (![0, 1] : Fin 2 → Fin S8192x256.rank)
  bcast_S1x256_S8192x256_0_1 : S1x256.BroadcastsInDim S8192x256 (![0, 1] : Fin 2 → Fin S8192x256.rank)
  bcast_S_S8192x256 : S_.BroadcastsInDim S8192x256 (![] : Fin 0 → Fin S8192x256.rank)
  dot_S8192x3072_S256x3072_S8192x256_1_1_0_0_n_n_wf : DotDims.WF S8192x3072 S256x3072 S8192x256 [1] [1] [0] [0] [] []

variable [Facts₀]

def dot_S8192x3072_S256x3072_S8192x256_1_1_0_0_n_n : DotDims S8192x3072 S256x3072 S8192x256 where
  lhsContracting := [1]
  rhsContracting := [1]
  lhsNonContracting := [0]
  rhsNonContracting := [0]
  lhsBatch := []
  rhsBatch := []
  wf := dot_S8192x3072_S256x3072_S8192x256_1_1_0_0_n_n_wf

class Facts : Prop extends Facts₀ where

variable [Facts]
-- ==== Proof.Dist.lean ====
/-
  The function both programs compute.

  For samples `X : [8192, 3072]` and centres `C : [256, 3072]`, entry `(r, q)` of the result is the clamped Euclidean
  distance between row `r` of `X` and row `q` of `C`, through the expansion of the square:
      sqrt (max (‖X r‖² + ‖C q‖² − 2 · ⟨X r, C q⟩) ε),
  where ‖·‖² and ⟨·,·⟩ are sums over the 3072 columns, everything read on the extended reals. The factor 2 and the floor ε
  are kept as the binary words that both programs carry: the same word on both sides is never evaluated.
-/
import Idealize.ShloMosaic.PureOps.Ideal
import Idealize.ShloMosaic.Lib.ValueIdx

noncomputable section

namespace Cert.Rbf

open Idealize.ShloMosaic Idealize.ShloMosaic.ValueIdx

/-- One entry from its three sums: the sample's squared norm `a`, the centre's squared norm `b`, their inner product `p`. -/
def clampDist (a b p : EReal) : EReal :=
  Ideal.sqrt (max (a + b - Ideal.ofBits .f32 0x40000000#32 * p) (Ideal.ofBits .f32 0x2B8CBCCC#32))

/-- The squared norm of row `r` of the samples. -/
def sampleSq (X : (⟨2, ![8192, 3072]⟩ : Shape).Idx → EReal) (r : Fin 8192) : EReal :=
  ∑ d : Fin 3072, X (ix2 r d) * X (ix2 r d)

/-- The squared norm of row `q` of the centres. -/
def centreSq (C : (⟨2, ![256, 3072]⟩ : Shape).Idx → EReal) (q : Fin 256) : EReal :=
  ∑ d : Fin 3072, C (ix2 q d) * C (ix2 q d)

/-- The inner product of row `r` of the samples with row `q` of the centres. -/
def cross (X : (⟨2, ![8192, 3072]⟩ : Shape).Idx → EReal) (C : (⟨2, ![256, 3072]⟩ : Shape).Idx → EReal) (r : Fin 8192) (q : Fin 256) :
    EReal :=
  ∑ d : Fin 3072, X (ix2 r d) * C (ix2 q d)

/-- Entry `(r, q)` of the result. -/
def distAt (X : (⟨2, ![8192, 3072]⟩ : Shape).Idx → EReal) (C : (⟨2, ![256, 3072]⟩ : Shape).Idx → EReal) (r : Fin 8192) (q : Fin 256) :
    EReal :=
  clampDist (sampleSq X r) (centreSq C q) (cross X C r q)

/-- The whole result array, index by index. -/
def dist (X : (⟨2, ![8192, 3072]⟩ : Shape).Idx → EReal) (C : (⟨2, ![256, 3072]⟩ : Shape).Idx → EReal) :
    (⟨2, ![8192, 256]⟩ : Shape).Idx → EReal :=
  fun i => distAt X C (i 0) (i 1)

theorem dist_ix2 (X : (⟨2, ![8192, 3072]⟩ : Shape).Idx → EReal) (C : (⟨2, ![256, 3072]⟩ : Shape).Idx → EReal) (r : Fin 8192) (q : Fin 256) :
    dist X C (ix2 r q) = distAt X C r q := rfl

end Cert.Rbf

end
-- ==== Proof.LibColumnLayout.lean ====
/-
  Column layouts read at an index, and a row sum at the ideal instance.

  A sum over the last axis of an `[a, b]` array taken with the axis kept leaves a column `[a, 1]`. Three re-layings of such a
  column occur around it: the cast of a vector `[a]` to the column `[a, 1]`, the cast of a column `[a, 1]` to the row `[1, a]`
  (the same `a` numbers in the same row-major order), and the broadcast of a column `[a, 1]` along a new second extent to
  `[a, b]`. Each, read at an index, is the operand at the evident index: entry `(i, 0)` of the column is entry `i` of the vector,
  entry `(0, i)` of the row is entry `(i, 0)` of the column, and entry `(p, c)` of the broadcast is entry `(p, 0)` of the column.
  The host's `broadcast_in_dim` of a vector to a column along axis 0 reads the same way.

  On the extended reals a sum along the second axis of an `[a, b]` array, at row `p`, is the sum over `d` of the entries
  `(p, d)` — for a vector reduction and for the host's reduction from an initial value alike.
-/
import Idealize.ShloMosaic.Lib.ValueLayout
import Idealize.ShloMosaic.PureOps.Ideal.Laws

noncomputable section

namespace Cert.LibColumnLayout

open Idealize.ShloMosaic Idealize.ShloMosaic.ValueIdx

variable {α : Type}

/-! ## A vector as a column, a column as a row, a column broadcast along rows -/

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to the row `[1, a]` reads, at `(u, i)`, the column at `(i, 0)`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of an `[a]` array to the column `[a, 1]` along axis 0 reads, at `(i, u)`, the operand at `i`. -/
theorem broadcastInDim_a_a1_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-! ## A sum along the second axis, on the extended reals -/

/-- A vector reduction by addition along the second axis of an `[a, b]` array, at row `p`: the sum of that row. -/
theorem multiReduction_add_rows_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ)
    (p : Fin a) : multiReduction .add [1] ⟨1, ![a]⟩ src acc h hφ hacc (ix1 p) = ∑ d : Fin b, src (ix2 p d) := by
  refine (Ideal.multiReduction_add_single src acc h hφ hacc (ix1 p)).trans ?_
  refine Finset.sum_congr rfl fun d _ => congrArg src ?_
  funext ax; apply Fin.ext
  match ax with
  | ⟨0, _⟩ => rfl
  | ⟨1, _⟩ => rfl

/-- The host's reduction by addition along the second axis from an initial value, at row `p`: the initial value plus the
    sum of that row. -/
theorem hostReduceAdd_rows_apply {a b : ℕ} (h' : (⟨2, ![a, b]⟩ : Shape).ReducesTo [1] ⟨1, ![a]⟩)
    (h : (⟨2, ![a, b]⟩ : Shape).Reduces [1] ⟨1, ![a]⟩) (x : (⟨2, ![a, b]⟩ : Shape).Idx → EReal) (init : EReal) (p : Fin a) :
    Ideal.hostReduceAdd h' x init (ix1 p) = init + ∑ d : Fin b, x (ix2 p d) := by
  refine (Ideal.hostReduceAdd_single h' h x init (ix1 p)).trans ?_
  refine congrArg (init + ·) (Finset.sum_congr rfl fun d _ => congrArg x ?_)
  funext ax; apply Fin.ext
  match ax with
  | ⟨0, _⟩ => rfl
  | ⟨1, _⟩ => rfl

end Cert.LibColumnLayout

end
-- ==== Proof.Payload.lean ====
/-
  What the body computes, entry by entry.

  At a grid point the body holds a block `x` of 512 samples, the whole array `c` of 256 centres (in the narrow format, which
  on the extended reals is the same numbers) and the row `s` of the centres' squared norms. It squares `x` and sums each row,
  keeps that as a column, spreads the column over the 256 result columns and the row `s` over the 512 result rows, multiplies
  `x` with `c` contracting the 3072 columns of both into a zero accumulator, and stores sqrt (max (xsq + s − 2 · cross) ε).
  Read at entry `(p, q)` of the block this is the clamped distance from the three numbers Σ_d x[p,d]², s[0,q] and
  Σ_d x[p,d] · c[q,d]: the narrowing of `x` is the identity, the casts of `c` and `s` to their own shapes are the identity, and the
  zero accumulator adds nothing.
-/
import proofs.«161797_j44023414784041_2_alg».proof.Proof.Gen.KernelIdeal.Skeleton
import proofs.«161797_j44023414784041_2_alg».proof.Proof.Dist
import proofs.«161797_j44023414784041_2_alg».proof.Proof.LibColumnLayout
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

/-! ## The product of the sample block with the transposed centres, at an entry -/

theorem lhs_row (i : S512x256.Idx) (k : dot_S512x3072_S256x3072_S512x256_1_1_0_0_n_n.contr.Idx) :
    (dot_S512x3072_S256x3072_S512x256_1_1_0_0_n_n.lhsIdx i k 0).val = (i 0).val := by
  unfold DotDims.lhsIdx
  rw [dif_neg (show ¬(0 : Fin S512x3072.rank) ∈ dot_S512x3072_S256x3072_S512x256_1_1_0_0_n_n.lhsBatch by decide),
    dif_pos (show (0 : Fin S512x3072.rank) ∈ dot_S512x3072_S256x3072_S512x256_1_1_0_0_n_n.lhsNonContracting by decide)]
  rfl

theorem lhs_col (i : S512x256.Idx) (k : dot_S512x3072_S256x3072_S512x256_1_1_0_0_n_n.contr.Idx) :
    (dot_S512x3072_S256x3072_S512x256_1_1_0_0_n_n.lhsIdx i k 1).val = (k ⟨0, by decide⟩).val :=
  dot_S512x3072_S256x3072_S512x256_1_1_0_0_n_n.lhsIdx_val_of_single rfl i k

theorem rhs_row (i : S512x256.Idx) (k : dot_S512x3072_S256x3072_S512x256_1_1_0_0_n_n.contr.Idx) :
    (dot_S512x3072_S256x3072_S512x256_1_1_0_0_n_n.rhsIdx i k 0).val = (i 1).val := by
  unfold DotDims.rhsIdx
  rw [dif_neg (show ¬(0 : Fin S256x3072.rank) ∈ dot_S512x3072_S256x3072_S512x256_1_1_0_0_n_n.rhsBatch by decide),
    dif_pos (show (0 : Fin S256x3072.rank) ∈ dot_S512x3072_S256x3072_S512x256_1_1_0_0_n_n.rhsNonContracting by decide)]
  rfl

theorem rhs_col (i : S512x256.Idx) (k : dot_S512x3072_S256x3072_S512x256_1_1_0_0_n_n.contr.Idx) :
    (dot_S512x3072_S256x3072_S512x256_1_1_0_0_n_n.rhsIdx i k 1).val = (k ⟨0, by decide⟩).val :=
  dot_S512x3072_S256x3072_S512x256_1_1_0_0_n_n.rhsIdx_val_of_single rfl i k

/-- The matrix product into a zero accumulator, at entry `(p, q)`: the sum over the 3072 columns of row `p` of the left
    operand times row `q` of the right one (both operands are contracted along their second axis). -/
theorem cross_apply (l : FVec Ideal S512x3072 .bf16) (r : FVec Ideal S256x3072 .bf16) (p : Fin 512) (q : Fin 256) :
    matmul dot_S512x3072_S256x3072_S512x256_1_1_0_0_n_n none l r (constant (F := Ideal) S512x256 .f32 0x00000000#32) (ix2 p q)
      = ∑ d : Fin 3072, l (ix2 p d) * r (ix2 q d) := by
  refine (Ideal.matmul_constant_zero_apply dot_S512x3072_S256x3072_S512x256_1_1_0_0_n_n none l r (ix2 p q)).trans ?_
  rw [← Equiv.sum_comp (ValueIdx.contrEquiv1 dot_S512x3072_S256x3072_S512x256_1_1_0_0_n_n 3072 rfl rfl).symm]
  refine Finset.sum_congr rfl fun k _ => ?_
  have hk := ValueIdx.contrEquiv1_symm_val dot_S512x3072_S256x3072_S512x256_1_1_0_0_n_n 3072 rfl rfl k
  have el : dot_S512x3072_S256x3072_S512x256_1_1_0_0_n_n.lhsIdx (ix2 p q) ((ValueIdx.contrEquiv1 dot_S512x3072_S256x3072_S512x256_1_1_0_0_n_n 3072 rfl rfl).symm k) = ix2 p k :=
    funext fun a => Fin.ext (by
      match a with
      | ⟨0, _⟩ => exact lhs_row _ _
      | ⟨1, _⟩ => exact (lhs_col _ _).trans hk)
  have er : dot_S512x3072_S256x3072_S512x256_1_1_0_0_n_n.rhsIdx (ix2 p q) ((ValueIdx.contrEquiv1 dot_S512x3072_S256x3072_S512x256_1_1_0_0_n_n 3072 rfl rfl).symm k) = ix2 q k :=
    funext fun a => Fin.ext (by
      match a with
      | ⟨0, _⟩ => exact rhs_row _ _
      | ⟨1, _⟩ => exact (rhs_col _ _).trans hk)
  rw [el, er]

/-! ## The three numbers of an entry -/

/-- The samples' squared norms, kept as a column and spread over the result's columns: at `(p, q)`, the sum of the squares
    of row `p`. -/
theorem sampleSq_apply (x : FVec Ideal S512x3072 .f32) (p : Fin 512) (q : Fin 256) :
    broadcastTo S512x256 (shapeCast S512x1 (multiReduction .add [1] S512 (mulf x x) 0x00000000#32 reduces_S512x3072_S512 (.inl rfl) rfl)
        shapeCasts_S512_S512x1) broadcasts_S512x1_S512x256 (ix2 p q)
      = ∑ d : Fin 3072, x (ix2 p d) * x (ix2 p d) := by
  refine (Cert.LibColumnLayout.broadcastTo_a1_ab_apply _ _ p q).trans ?_
  refine (Cert.LibColumnLayout.shapeCast_a_a1_apply _ _ p (0 : Fin 1)).trans ?_
  exact Cert.LibColumnLayout.multiReduction_add_rows_apply (mulf x x) _ _ _ _ p

/-- The row of the centres' squared norms spread over the result's rows: at `(p, q)`, its entry `q`. -/
theorem centreSq_apply (s : FVec Ideal S1x256 .f32) (p : Fin 512) (q : Fin 256) :
    broadcastTo S512x256 (shapeCast S1x256 s shapeCasts_S1x256_S1x256) broadcasts_S1x256_S512x256 (ix2 p q) = s (ix2 (0 : Fin 1) q) := by
  rw [shapeCast_self]
  exact broadcastTo_1b_ab_apply s _ p q

/-- The product term: the narrowing of the samples and the cast of the centres to their own shape change nothing. -/
theorem product_apply (x : FVec Ideal S512x3072 .f32) (c : FVec Ideal S256x3072 .bf16) (p : Fin 512) (q : Fin 256) :
    matmul dot_S512x3072_S256x3072_S512x256_1_1_0_0_n_n none (truncf .bf16 x bitsLt_bf16_f32) (shapeCast S256x3072 c shapeCasts_S256x3072_S256x3072)
        (constant (F := Ideal) S512x256 .f32 0x00000000#32) (ix2 p q)
      = ∑ d : Fin 3072, x (ix2 p d) * c (ix2 q d) := by
  rw [shapeCast_self]
  exact cross_apply (truncf .bf16 x bitsLt_bf16_f32) c p q

/-! ## The payload -/

/-- Entry `(p, q)` of what the body stores, from its three loaded blocks. -/
theorem payload_apply (x : FVec Ideal S512x3072 .f32) (c : FVec Ideal S256x3072 .bf16) (s : FVec Ideal S1x256 .f32)
    (p : Fin 512) (q : Fin 256) :
    k0_pay1 (F := Ideal) x c s (ix2 p q)
      = Cert.Rbf.clampDist (∑ d : Fin 3072, x (ix2 p d) * x (ix2 p d)) (s (ix2 (0 : Fin 1) q))
          (∑ d : Fin 3072, x (ix2 p d) * c (ix2 q d)) := by
  have key : k0_pay1 (F := Ideal) x c s (ix2 p q) = Cert.Rbf.clampDist
      (broadcastTo S512x256 (shapeCast S512x1 (multiReduction .add [1] S512 (mulf x x) 0x00000000#32 reduces_S512x3072_S512 (.inl rfl) rfl)
        shapeCasts_S512_S512x1) broadcasts_S512x1_S512x256 (ix2 p q))
      (broadcastTo S512x256 (shapeCast S1x256 s shapeCasts_S1x256_S1x256) broadcasts_S1x256_S512x256 (ix2 p q))
      (matmul dot_S512x3072_S256x3072_S512x256_1_1_0_0_n_n none (truncf .bf16 x bitsLt_bf16_f32) (shapeCast S256x3072 c shapeCasts_S256x3072_S256x3072)
        (constant (F := Ideal) S512x256 .f32 0x00000000#32) (ix2 p q)) := rfl
  rw [key, sampleSq_apply, centreSq_apply, product_apply]

end Cert.KernelIdeal.Body

end
-- ==== Proof.HostSide.lean ====
/-
  What the region finds in the two arrays the host prepared.

  Before the region the host narrows the centres to the short format — on the extended reals the same numbers — and computes
  the centres' squared norms: it squares the centres, sums each row from the initial value zero, keeps the 256 sums as a column
  `[256, 1]` and re-lays the column as the row `[1, 256]`. So entry `(q, d)` of the first array is entry `(q, d)` of the
  centres, and entry `(0, q)` of the second is the sum over `d` of the squares of row `q` of the centres.
-/
import proofs.«161797_j44023414784041_2_alg».proof.Proof.Gen.KernelIdeal.Frame
import proofs.«161797_j44023414784041_2_alg».proof.Proof.Dist
import proofs.«161797_j44023414784041_2_alg».proof.Proof.LibColumnLayout
import Idealize.ShloMosaic.Lib.StableHlo.Run
import Idealize.ShloMosaic.Lib.ValueIdx
import Idealize.ShloMosaic.PureOps.Ideal.Laws

noncomputable section

namespace Cert.KernelIdeal.HostSide

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The narrowed centres, as the host's operation of the centres. -/
theorem narrowed_eq (c : Dev nD) :
    @Eq (S256x3072.Idx → EReal) (V m c main_v0)
      (truncf (F := Ideal) .bf16 (m ((c : Thread nD τ).loc main_arg1) : FVec Ideal S256x3072 .f32) bitsLt_bf16_f32) := by
  dsimp only [Gen.V, Gen.hostOps0]; after_results

/-- Entry by entry they are the centres. -/
theorem narrowed_apply (c : Dev nD) (i : S256x3072.Idx) :
    V m c main_v0 i = m ((c : Thread nD τ).loc main_arg1) i :=
  congrFun (narrowed_eq m c) i

/-- The row of squared norms, as the host's operations of the centres. -/
theorem normRow_eq (c : Dev nD) :
    @Eq (S1x256.Idx → EReal) (V m c main_v4)
      (shapeCast S1x256 (broadcastInDim S256x1 ![0] bcast_S256_S256x1_0
          (Host.reduceAdd (F := Ideal) (φ := .f32)
            (mulf (m ((c : Thread nD τ).loc main_arg1) : FVec Ideal S256x3072 .f32) (m ((c : Thread nD τ).loc main_arg1)))
            (constant (F := Ideal) S_ .f32 0x00000000#32) reducesTo_S256x3072_S256_d1 h_S_)) shapeCasts_S256x1_S1x256) := by
  dsimp only [Gen.V, Gen.hostOps0]; after_results; rfl

/-- Its entry `(0, q)` is the squared norm of row `q` of the centres. -/
theorem normRow_apply (c : Dev nD) (q : Fin 256) :
    V m c main_v4 (ix2 (0 : Fin 1) q) = Cert.Rbf.centreSq (m ((c : Thread nD τ).loc main_arg1)) q := by
  refine (congrFun (normRow_eq m c) (ix2 (0 : Fin 1) q)).trans ?_
  refine (Cert.LibColumnLayout.shapeCast_a1_1a_apply _ _ (0 : Fin 1) q).trans ?_
  refine (Cert.LibColumnLayout.broadcastInDim_a_a1_apply _ _ q (0 : Fin 1)).trans ?_
  simp only [Host.reduceAdd, Ideal.hostReduceAdd_def]
  refine (Cert.LibColumnLayout.hostReduceAdd_rows_apply reducesTo_S256x3072_S256_d1 (by decide) _ _ q).trans ?_
  show Ideal.ofBits .f32 0x00000000#32 + _ = _
  rw [Ideal.ofBits_zero_f32, zero_add]
  rfl

end Cert.KernelIdeal.HostSide

end
-- ==== Proof.WholeArray.lean ====
/-
  From the sixteen blocks to the whole result array.

  Grid point `t` of sixteen works on rows `512 t … 512 t + 511` of the samples and writes rows `512 t … 512 t + 511` of the
  result, all 256 columns; it sees the whole array of narrowed centres and the whole row of their squared norms. So entry
  `(p, d)` of its sample block is entry `(512 t + p, d)` of the samples, entry `(q, d)` of its centre block is entry `(q, d)` of
  the centres, entry `(0, q)` of its norm block is the squared norm of centre `q`, and entry `(p, q)` of what it writes is the
  clamped distance between sample `512 t + p` and centre `q`: block `t` of the specification's array. Row `r` of the result lies
  in the block of point `r / 512`, so the sixteen blocks cover the array and the array ends as the specification's.
-/
import proofs.«161797_j44023414784041_2_alg».proof.Proof.Gen.KernelIdeal.Value
import proofs.«161797_j44023414784041_2_alg».proof.Proof.Payload
import proofs.«161797_j44023414784041_2_alg».proof.Proof.HostSide
import Idealize.ShloMosaic.Lib.Pipeline.Value

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zero_off : (![0, 0] : Fin 2 → Nat) = fun _ => 0 := funext fun a => by fin_cases a <;> rfl

/-- The block index of every window at every point: the samples and the result move down one block of rows per point, the
    centres and their norms stay at the origin. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-! ## The input blocks, entry by entry -/

/-- Entry `(p, d)` of the sample block at point `t` is entry `(512 t + p, d)` of the samples. -/
theorem sampleBlock_apply (c : Dev nD) (t : Fin cfg0.N) (p : Fin 512) (d : Fin 3072) (r : Fin 8192)
    (hr : r.val = t.val * 512 + p.val) :
    (iblk m c 0 t : FVec Ideal S512x3072 .f32) (ix2 p d) = m ((c : Thread nD τ).loc main_arg0) (ix2 r d) := by
  obtain ⟨e0, e1, -⟩ := block_indices t
  show V m c main_arg0 (((cfg0.win 0).blk t).view.emb (ix2 p d)) = _
  rw [V_main_arg0]
  refine congrArg (m ((c : Thread nD τ).loc main_arg0)) (funext fun a => Fin.ext ?_)
  match a with
  | ⟨0, _⟩ => show win0_0.index t (0 : Fin 2) * 512 + 1 * p.val = r.val; omega
  | ⟨1, _⟩ => show win0_0.index t (1 : Fin 2) * 3072 + 1 * d.val = d.val; omega

/-- Entry `(q, d)` of the centre block at any point is entry `(q, d)` of the centres. -/
theorem centreBlock_apply (c : Dev nD) (t : Fin cfg0.N) (q : Fin 256) (d : Fin 3072) :
    (iblk m c 1 t : FVec Ideal S256x3072 .bf16) (ix2 q d) = m ((c : Thread nD τ).loc main_arg1) (ix2 q d) := by
  obtain ⟨-, -, e0, e1, -⟩ := block_indices t
  show V m c main_v0 (((cfg0.win 1).blk t).view.emb (ix2 q d)) = _
  refine (HostSide.narrowed_apply m c _).trans ?_
  refine congrArg (m ((c : Thread nD τ).loc main_arg1)) (funext fun a => Fin.ext ?_)
  match a with
  | ⟨0, _⟩ => show win0_1.index t (0 : Fin 2) * 256 + 1 * q.val = q.val; omega
  | ⟨1, _⟩ => show win0_1.index t (1 : Fin 2) * 3072 + 1 * d.val = d.val; omega

/-- Entry `(0, q)` of the norm block at any point is the squared norm of centre `q`. -/
theorem normBlock_apply (c : Dev nD) (t : Fin cfg0.N) (q : Fin 256) :
    (iblk m c 2 t : FVec Ideal S1x256 .f32) (ix2 (0 : Fin 1) q)
      = Cert.Rbf.centreSq (m ((c : Thread nD τ).loc main_arg1)) q := by
  obtain ⟨-, -, -, -, e0, e1, -⟩ := block_indices t
  show V m c main_v4 (((cfg0.win 2).blk t).view.emb (ix2 (0 : Fin 1) q)) = _
  have hi : ((cfg0.win 2).blk t).view.emb (ix2 (0 : Fin 1) q) = ix2 (0 : Fin 1) q := funext fun a => Fin.ext (by
    match a with
    | ⟨0, _⟩ => show win0_2.index t (0 : Fin 2) * 1 + 1 * 0 = 0; omega
    | ⟨1, _⟩ => show win0_2.index t (1 : Fin 2) * 256 + 1 * q.val = q.val; omega)
  exact (congrArg (V m c main_v4) hi).trans (HostSide.normRow_apply m c q)

/-! ## One entry of one point's block -/

/-- If three blocks hold row `r` of the samples in row `p`, the centres, and the centres' squared norms, the body's payload
    at `(p, q)` is the specification's entry `(r, q)`. -/
theorem entry_eq (X : (⟨2, ![8192, 3072]⟩ : Shape).Idx → EReal) (C : (⟨2, ![256, 3072]⟩ : Shape).Idx → EReal)
    (x : FVec Ideal S512x3072 .f32) (cb : FVec Ideal S256x3072 .bf16) (s : FVec Ideal S1x256 .f32)
    (p : Fin 512) (q : Fin 256) (r : Fin 8192)
    (hx : ∀ d : Fin 3072, x (ix2 p d) = X (ix2 r d)) (hc : ∀ d : Fin 3072, cb (ix2 q d) = C (ix2 q d))
    (hs : s (ix2 (0 : Fin 1) q) = Cert.Rbf.centreSq C q) :
    k0_pay1 (F := Ideal) x cb s (ix2 p q) = Cert.Rbf.distAt X C r q := by
  rw [Body.payload_apply, hs]
  unfold Cert.Rbf.distAt Cert.Rbf.sampleSq Cert.Rbf.cross
  simp only [hx, hc]

/-! ## What a point writes back, the cover, the array -/

/-- What point `t` writes back is block `t` of the specification's array of the arguments. -/
theorem flushed_eq (c : Dev nD) (t : Fin cfg0.N) :
    (dats m 0 c).flushed 3 t = ((cfg0.win 3).blk t).view.read (Elt Ideal)
      (Cert.Rbf.dist (m ((c : Thread nD τ).loc main_arg0)) (m ((c : Thread nD τ).loc main_arg1))) := by
  rw [Value.flushed3]
  unfold out0_3
  rw [View.canon_unit_zero zero_off]
  simp only [View.ld_unit_zero (S := S512x3072) zero_off, View.ld_unit_zero (S := S256x3072) zero_off,
    View.ld_unit_zero (S := S1x256) zero_off]
  obtain ⟨-, -, -, -, -, -, e0, e1⟩ := block_indices t
  have hN : cfg0.N = 16 := N_0
  have ht : t.val < 16 := by have := t.isLt; omega
  funext j
  have hp : (j 0).val < 512 := (j 0).isLt
  have hq : (j 1).val < 256 := (j 1).isLt
  have hj : j = ix2 (⟨(j 0).val, hp⟩ : Fin 512) (⟨(j 1).val, hq⟩ : Fin 256) :=
    funext fun a => Fin.ext (by match a with | ⟨0, _⟩ => rfl | ⟨1, _⟩ => rfl)
  have hi : ((cfg0.win 3).blk t).view.emb (ix2 (⟨(j 0).val, hp⟩ : Fin 512) (⟨(j 1).val, hq⟩ : Fin 256))
      = ix2 (⟨t.val * 512 + (j 0).val, by omega⟩ : Fin 8192) (⟨(j 1).val, hq⟩ : Fin 256) := funext fun a => Fin.ext (by
    match a with
    | ⟨0, _⟩ => show win0_3.index t (0 : Fin 2) * 512 + 1 * (j 0).val = t.val * 512 + (j 0).val; omega
    | ⟨1, _⟩ => show win0_3.index t (1 : Fin 2) * 256 + 1 * (j 1).val = (j 1).val; omega)
  show k0_pay1 (iblk m c 0 t) (iblk m c 1 t) (iblk m c 2 t) j
    = Cert.Rbf.dist (m ((c : Thread nD τ).loc main_arg0)) (m ((c : Thread nD τ).loc main_arg1)) (((cfg0.win 3).blk t).view.emb j)
  rw [hj, hi, Cert.Rbf.dist_ix2]
  exact entry_eq (m ((c : Thread nD τ).loc main_arg0)) (m ((c : Thread nD τ).loc main_arg1))
    (iblk m c 0 t) (iblk m c 1 t) (iblk m c 2 t) _ _ _
    (fun d => sampleBlock_apply m c t _ d _ rfl) (fun d => centreBlock_apply m c t _ d) (normBlock_apply m c t _)

/-- An index of the result is in point `t`'s block iff each coordinate is in the block's range on its axis. -/
theorem mem_blk (t : Fin cfg0.N) (i : S8192x256.Idx) :
    i ∈ ((cfg0.win 3).blk t).view.set ↔ ∀ a : Fin 2, win0_3.index t a * S512x256.size a ≤ (i a).val
      ∧ (i a).val < win0_3.index t a * S512x256.size a + S512x256.size a := by
  show i ∈ ((View.whole main_v5).slice (win0_3.rect t)).set ↔ _
  rw [View.set_slice_whole, Rect.mem_set_unit]
  exact Iff.rfl

/-- Every index of the result is in the block of the point its row falls in. -/
theorem covered (i : S8192x256.Idx) :
    ∃ t : Fin cfg0.N, (cfg0.win 3).flush t = true ∧ i ∈ ((cfg0.win 3).blk t).view.set := by
  have hi0 : (i 0).val < 8192 := (i 0).isLt
  have hi1 : (i 1).val < 256 := (i 1).isLt
  have hN : cfg0.N = 16 := N_0
  obtain ⟨t, ht⟩ : ∃ t : Fin cfg0.N, t.val = (i 0).val / 512 := ⟨⟨(i 0).val / 512, by omega⟩, rfl⟩
  obtain ⟨-, -, -, -, -, -, e0, e1⟩ := block_indices t
  refine ⟨t, flush0_3 t, ?_⟩
  rw [mem_blk]
  intro a
  match a with
  | ⟨0, _⟩ =>
    show win0_3.index t (0 : Fin 2) * 512 ≤ (i 0).val ∧ (i 0).val < win0_3.index t (0 : Fin 2) * 512 + 512
    omega
  | ⟨1, _⟩ =>
    show win0_3.index t (1 : Fin 2) * 256 ≤ (i 1).val ∧ (i 1).val < win0_3.index t (1 : Fin 2) * 256 + 256
    omega

/-- The result array after the run is the specification's array of the arguments. -/
theorem final (c : Dev nD) :
    (dats m 0 c).arrAt 3 cfg0.N
      = Cert.Rbf.dist (m ((c : Thread nD τ).loc main_arg0)) (m ((c : Thread nD τ).loc main_arg1)) :=
  (dats m 0 c).arrAt_eq_of_cover 3
    (Cert.Rbf.dist (m ((c : Thread nD τ).loc main_arg0)) (m ((c : Thread nD τ).loc main_arg1)))
    (fun t _ => flushed_eq m c t) covered

/-- The run: the result array ends as the specification's array of the arguments, and the arguments are unchanged. -/
theorem run : θ_run defs (onTc (τ := τ) (main (F := Ideal))) ⟨m, fun _ => 0, ρ⟩ fun r => ∀ c : Dev nD,
      r.2.mem ((c : Thread nD τ).loc main_v5)
        = Cert.Rbf.dist (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Whole

end
-- ==== Proof.Reference.lean ====
/-
  The reference's result, stage by stage, is the clamped distance.

  The reference squares the samples and sums each row (from the initial value zero), does the same for the centres, takes
  the matrix product of the samples with the transposed centres as one contraction over the 3072 columns, spreads the two
  vectors of squared norms along the other axis, and then forms sqrt (max (xsq + csq − 2 · cross) ε) entry by entry. Read
  at the index `(r, q)`, every spreading step picks coordinate `r` of the samples' norms and coordinate `q` of the centres'
  norms, the initial zero adds nothing, and what is left is the three sums of the specification.
-/
import proofs.«161797_j44023414784041_2_alg».proof.Proof.Gen.ReferenceIdeal.Read
import proofs.«161797_j44023414784041_2_alg».proof.Proof.Dist

noncomputable section

namespace Cert.ReferenceIdeal.RefValue

open Cert.ReferenceIdeal Cert.ReferenceIdeal.Read Idealize.ShloMosaic Idealize.ShloMosaic.ValueIdx

/-- Row `r` of the samples at column `k`, as the composed index of the reference's spreading steps spells it. -/
theorem idx_sample (r : Fin 8192) (q : Fin 256) (k : Fin 3072) :
    idx_main_v1 (idx_main_v2 (idx_main_v7 (ix2 r q))) k = ix2 r k :=
  funext fun a => Fin.ext (by match a with | ⟨0, _⟩ => rfl | ⟨1, _⟩ => rfl)

/-- Row `q` of the centres at column `k`, likewise. -/
theorem idx_centre (r : Fin 8192) (q : Fin 256) (k : Fin 3072) :
    idx_main_v4 (idx_main_v6 (idx_main_v8 (ix2 r q))) k = ix2 q k :=
  funext fun a => Fin.ext (by match a with | ⟨0, _⟩ => rfl | ⟨1, _⟩ => rfl)

/-- The contraction's left operand index at `(r, q)` and `k` is `(r, k)`. -/
theorem idx_left (r : Fin 8192) (q : Fin 256) (k : Fin 3072) : lidx_main_v5 (ix2 r q) k = ix2 r k :=
  funext fun a => Fin.ext (by match a with | ⟨0, _⟩ => rfl | ⟨1, _⟩ => rfl)

/-- Its right operand index is `(q, k)`: the centres are contracted along their own second axis. -/
theorem idx_right (r : Fin 8192) (q : Fin 256) (k : Fin 3072) : ridx_main_v5 (ix2 r q) k = ix2 q k :=
  funext fun a => Fin.ext (by match a with | ⟨0, _⟩ => rfl | ⟨1, _⟩ => rfl)

/-- The reference's last stage is the specification's array. -/
theorem result_eq (x0 : (⟨S8192x3072, .f32⟩ : BufTy).Contents (Elt Ideal)) (x1 : (⟨S256x3072, .f32⟩ : BufTy).Contents (Elt Ideal)) :
    val_main_v15 (F := Ideal) x0 x1 = Cert.Rbf.dist x0 x1 := by
  funext i
  obtain ⟨r, q, rfl⟩ : ∃ (r : Fin 8192) (q : Fin 256), i = ix2 r q := ⟨i 0, i 1, eq_ix2 i⟩
  rw [val_main_v15_apply, val_main_v14_apply, val_main_v13_apply, val_main_cst_2_apply, val_main_v12_apply,
    val_main_v11_apply, val_main_v10_apply, val_main_cst_1_apply, val_main_v5_apply, val_main_v9_apply,
    val_main_v8_apply, val_main_v6_apply, val_main_v4_apply, val_main_v7_apply, val_main_v2_apply, val_main_v1_apply,
    val_main_cst_apply, val_main_cst_0_apply]
  simp only [val_main_v0_apply, val_main_v3_apply, idx_sample, idx_centre, idx_left, idx_right,
    Ideal.hostUnary_sqrt_def, Ideal.maximumf_def, Ideal.subf_def, Ideal.addf_def, Ideal.mulf_def, Ideal.ofBits_def,
    Ideal.ofBits_zero_f32, zero_add]
  rfl

end Cert.ReferenceIdeal.RefValue

end
-- ==== Proof.lean ====
/-
  Distances from 8192 samples to 256 centres: the tiled kernel against the plain formula.

  Both programs compute, for samples `X : [8192, 3072]` and centres `C : [256, 3072]`, the array whose entry `(r, q)` is
      sqrt (max (‖X r‖² + ‖C q‖² − 2 · ⟨X r, C q⟩) ε)
  with the squared norms and the inner product as sums over the 3072 columns. The reference forms the three terms over the
  whole arrays. The kernel has the host compute the centres' squared norms once, as a row, and narrow the centres to the short
  float format; it then walks over the samples in sixteen blocks of 512 rows, and for each block sums the squares of its rows,
  multiplies the block with the narrowed centres contracting the columns, and stores the clamped root for its 512 × 256
  entries. On the extended reals a change of float format is the identity, a matrix product into a zero accumulator is the
  plain sum of products, and a sum does not depend on how it is grouped or tiled; the constants 2 and ε are the same binary
  words on both sides. So block `t` of what the kernel writes is block `t` of the specification's array, the sixteen blocks
  cover the result, and the reference's last stage is the same array: the two results are equal entry by entry. No step uses
  finiteness of the inputs (only commutativity and associativity of the sums are involved), so the precondition is never
  opened. The idealized kernel is the printed kernel read on the extended reals with no rewrite, so nothing is owed for it.
-/
import proofs.«161797_j44023414784041_2_alg».proof.Defs
import proofs.«161797_j44023414784041_2_alg».proof.Proof.Gen.Kernel
import proofs.«161797_j44023414784041_2_alg».proof.Proof.Gen.Kernel.Skeleton
import proofs.«161797_j44023414784041_2_alg».proof.Proof.Gen.Kernel.Launch
import proofs.«161797_j44023414784041_2_alg».proof.Proof.Gen.Kernel.Points
import proofs.«161797_j44023414784041_2_alg».proof.Proof.Gen.Kernel.Frame
import proofs.«161797_j44023414784041_2_alg».proof.Proof.Gen.KernelIdeal
import proofs.«161797_j44023414784041_2_alg».proof.Proof.Gen.KernelIdeal.Skeleton
import proofs.«161797_j44023414784041_2_alg».proof.Proof.Gen.KernelIdeal.Launch
import proofs.«161797_j44023414784041_2_alg».proof.Proof.Gen.KernelIdeal.Points
import proofs.«161797_j44023414784041_2_alg».proof.Proof.Gen.KernelIdeal.Frame
import proofs.«161797_j44023414784041_2_alg».proof.Proof.Gen.ReferenceIdeal
import proofs.«161797_j44023414784041_2_alg».proof.Proof.Gen.Pre_finite_inputs
import proofs.«161797_j44023414784041_2_alg».proof.Proof.Gen.KernelIdeal.Value
import proofs.«161797_j44023414784041_2_alg».proof.Proof.Gen.ReferenceIdeal.Run
import proofs.«161797_j44023414784041_2_alg».proof.Proof.Gen.ReferenceIdeal.Read
import proofs.«161797_j44023414784041_2_alg».proof.Proof.WholeArray
import proofs.«161797_j44023414784041_2_alg».proof.Proof.Reference
import Idealize.ShloMosaic.Adequacy
import Idealize.ShloMosaic.Init

noncomputable section

namespace Cert.Proof

open Idealize.ShloMosaic Idealize.ShloMosaic.TcCoe Idealize.SL.Sem

/-- The printed kernel runs to the end without a fault and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is a straight line of host operations: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Reading the kernel on the extended reals rewrote no operation. -/
theorem preserves : Cert.preserves_Kernel_KernelIdeal := trivial

/-- From memories that agree on the samples and the centres, the kernel's result array and the reference's both end as the
    array of clamped distances of those arguments. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
